-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S100000x128 .f32) (main_arg1 : FVec F S100000x128 .f32) (main_arg2 : FVec F S128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1700000x128 : Shape := ⟨2, ![1700000, 128]⟩

abbrev nBuf : Space → Nat
  | .hbm => 41
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x128, .f32⟩
  | .hbm, ⟨35, _⟩ => ⟨S_, .f32⟩
  | .hbm, ⟨36, _⟩ => ⟨S100000x128, .f32⟩
  | .hbm, ⟨37, _⟩ => ⟨S1700000x1, .i32⟩
  | .hbm, ⟨38, _⟩ => ⟨S100000x128, .f32⟩
  | .hbm, ⟨39, _⟩ => ⟨S128x128, .bf16⟩
  | .hbm, ⟨40, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x1, .f32⟩
  | .local _ .vmem, ⟨9, _⟩ => ⟨S5000x1, .f32⟩
  | .local _ .vmem, ⟨10, _⟩ => ⟨S5000x128, .f32⟩
  | .local _ .vmem, ⟨11, _⟩ => ⟨S5000x128, .f32⟩
  | .local _ .vmem, ⟨12, _⟩ => ⟨S128x128, .bf16⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S100000x128 : S_.BroadcastsInDim S100000x128 (![] : Fin 0 → Fin S100000x128.rank)
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v27) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S2x1600000, .i32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_c_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_6 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_11 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.HostEntry.lean ====
/-
  What the host operations before the first pipeline leave in the buffers both pipelines and the later host operations
  read: the two argument arrays untouched, the source and target index vectors (the edge list's rows followed by
  `0 … N - 1`), and the `d^(-1/2)` column — the same operations of the edge list as the reference applies.
-/
import proofs.«103143_j37022618092149_2_alg».proof.Proof.Gen.KernelIdeal.Frame
import proofs.«103143_j37022618092149_2_alg».proof.Proof.ReadP
import Idealize.ShloMosaic.Lib.StableHlo.Run

set_option maxRecDepth 16384

noncomputable section

namespace Cert.KernelIdeal.HostEntry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The `d^(-1/2)` vector as a column `[N, 1]`. -/
def dcol (ei : IVec S2x1600000 32) : S100000x1.Idx → EReal :=
  shapeCast S100000x1 (Cert.ReferenceIdeal.ReadP.val_main_v15 (F := Ideal) ei) shapeCasts_S100000_S100000x1

theorem at_arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results_simp <;> rfl

theorem at_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  after_results_simp <;> rfl

theorem at_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem at_src (c : Dev nD) : W3 m ρ c (Proc.devRef .tc main_v3)
    = Cert.ReferenceIdeal.ReadP.val_main_v3 (F := Ideal) (m ((c : Thread nD τ).loc main_arg3)) := by
  show StableHlo.after hostOps0_2 (StableHlo.after hostOps0_1 (StableHlo.after hostOps0 (W0 m ρ c))) (Proc.devRef .tc main_v3) = _
  after_results_simp <;> rfl

theorem at_dst (c : Dev nD) : W3 m ρ c (Proc.devRef .tc main_v6)
    = Cert.ReferenceIdeal.ReadP.val_main_v6 (F := Ideal) (m ((c : Thread nD τ).loc main_arg3)) := by
  show StableHlo.after hostOps0_2 (StableHlo.after hostOps0_1 (StableHlo.after hostOps0 (W0 m ρ c))) (Proc.devRef .tc main_v6) = _
  after_results_simp <;> rfl

/-! The `d^(-1/2)` column, one stretch at a time, from ANY contents `W` (so that nothing already computed is opened
    again): the comparison, the reciprocal square root and the zero vector of the first stretch, the selection between
    them, and the reshape to a column. -/

theorem step_cmp (W : Valuation τ sig (Elt Ideal)) : StableHlo.after hostOps0 W (Proc.devRef .tc main_v12)
    = Cert.ReferenceIdeal.ReadP.val_main_v12 (F := Ideal) (W (Proc.devRef .tc main_arg3)) := by
  after_results_simp <;> rfl

theorem step_rsqrt (W : Valuation τ sig (Elt Ideal)) : StableHlo.after hostOps0 W (Proc.devRef .tc main_v13)
    = Cert.ReferenceIdeal.ReadP.val_main_v13 (F := Ideal) (W (Proc.devRef .tc main_arg3)) := by
  after_results_simp <;> rfl

theorem step_zero (W : Valuation τ sig (Elt Ideal)) : StableHlo.after hostOps0 W (Proc.devRef .tc main_v14)
    = Cert.ReferenceIdeal.ReadP.val_main_v14 (F := Ideal) := by
  after_results_simp <;> rfl

theorem step_where (W : Valuation τ sig (Elt Ideal)) : StableHlo.after hostOps0_1 W (Proc.devRef .tc main_v15)
    = select (W (Proc.devRef .tc main_v12)) (W (Proc.devRef .tc main_v13)) (W (Proc.devRef .tc main_v14)) := by
  after_results_simp <;> rfl

theorem step_col (W : Valuation τ sig (Elt Ideal)) : StableHlo.after hostOps0_2 W (Proc.devRef .tc main_v16)
    = shapeCast S100000x1 (W (Proc.devRef .tc main_v15)) shapeCasts_S100000_S100000x1 := by
  after_results_simp <;> rfl

theorem at_dcol (c : Dev nD) : V3 m ρ c main_v16 = dcol (m ((c : Thread nD τ).loc main_arg3)) :=
  (step_col (W2 m ρ c)).trans (congrArg (fun v => shapeCast S100000x1 v shapeCasts_S100000_S100000x1)
    ((step_where (W1 m ρ c)).trans
      (show select (StableHlo.after hostOps0 (W0 m ρ c) (Proc.devRef .tc main_v12))
          (StableHlo.after hostOps0 (W0 m ρ c) (Proc.devRef .tc main_v13))
          (StableHlo.after hostOps0 (W0 m ρ c) (Proc.devRef .tc main_v14))
          = Cert.ReferenceIdeal.ReadP.val_main_v15 (F := Ideal) (m ((c : Thread nD τ).loc main_arg3)) by
        rw [step_cmp, step_rsqrt, step_zero]; rfl)))

/-! The first pipeline writes only its output array: the other buffers pass through it. -/

theorem mid_src (c : Dev nD) : W4 m ρ c (Proc.devRef .tc main_v3)
    = Cert.ReferenceIdeal.ReadP.val_main_v3 (F := Ideal) (m ((c : Thread nD τ).loc main_arg3)) :=
  (W4_of_ne m ρ c main_v3 (by decide)).trans (at_src m ρ c)

theorem mid_dst (c : Dev nD) : W4 m ρ c (Proc.devRef .tc main_v6)
    = Cert.ReferenceIdeal.ReadP.val_main_v6 (F := Ideal) (m ((c : Thread nD τ).loc main_arg3)) :=
  (W4_of_ne m ρ c main_v6 (by decide)).trans (at_dst m ρ c)

theorem mid_arg1 (c : Dev nD) : W4 m ρ c (Proc.devRef .tc main_arg1) = m ((c : Thread nD τ).loc main_arg1) :=
  (W4_of_ne m ρ c main_arg1 (by decide)).trans (at_arg1 m ρ c)

theorem mid_arg2 (c : Dev nD) : W4 m ρ c (Proc.devRef .tc main_arg2) = m ((c : Thread nD τ).loc main_arg2) :=
  (W4_of_ne m ρ c main_arg2 (by decide)).trans (at_arg2 m ρ c)

theorem mid_dcol (c : Dev nD) : W4 m ρ c (Proc.devRef .tc main_v16) = dcol (m ((c : Thread nD τ).loc main_arg3)) :=
  (W4_arr m ρ c 1).trans (((dat0 (V3 m ρ) c).arrAt_in 1 rfl _).trans ((A_eq0 (V3 m ρ) c 1).trans (at_dcol m ρ c)))

end Cert.KernelIdeal.HostEntry

end
-- ==== Proof.Bodies.lean ====
/-
  The two kernel bodies read at one element, on the extended reals.

  The pre-scale body multiplies a block of `x` by the entry of the `d^(-1/2)` column beside each row. The residual body
  forms, per element, `blend = 0.9·(raw · d^(-1/2)[row]) + 0.1·x0`, and returns `(1 - β)·blend + β·Σ_k blend[row, k]·W[k, col]`:
  the matrix product into a zero accumulator is the plain sum over the contracted axis, and the change of float format
  before it is the identity.
-/
import proofs.«103143_j37022618092149_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Bodies

open Cert.KernelIdeal Cert.KernelIdeal.Gen Idealize.ShloMosaic Idealize.ShloMosaic.ValueIdx

/-- The entry of a `[5000, 1]` column beside row `j 0` of a `[5000, 128]` block. -/
abbrev colB (j : S5000x128.Idx) : S5000x1.Idx := fun a => match a with
  | ⟨0, _⟩ => ⟨(j 0).val, (j 0).isLt⟩
  | ⟨1, _⟩ => ⟨0, Nat.one_pos⟩

/-- Element `(j 0, k)` of a `[5000, 128]` block: row of `j`, column `k`. -/
abbrev rowAt (j : S5000x128.Idx) (k : Fin 128) : S5000x128.Idx := fun a => match a with
  | ⟨0, _⟩ => ⟨(j 0).val, (j 0).isLt⟩
  | ⟨1, _⟩ => ⟨k.val, k.isLt⟩

/-- Element `(k, j 1)` of the `[128, 128]` weight block: row `k`, column of `j`. -/
abbrev colAt (j : S5000x128.Idx) (k : Fin 128) : S128x128.Idx := fun a => match a with
  | ⟨0, _⟩ => ⟨k.val, k.isLt⟩
  | ⟨1, _⟩ => ⟨(j 1).val, (j 1).isLt⟩

/-- The column broadcast along the rows of a block, read at an element. -/
theorem bcast_col (x1 : S5000x1.Idx → EReal) (j : S5000x128.Idx) :
    broadcastTo S5000x128 x1 broadcasts_S5000x1_S5000x128 j = x1 (colB j) :=
  broadcastTo_apply x1 broadcasts_S5000x1_S5000x128 j (colB j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])

/-- The pre-scale body at an element: the block's element times the column's entry beside its row. -/
theorem prescale_apply (x0 : Vec Ideal S5000x128 .f32) (x1 : Vec Ideal S5000x1 .f32) (j : S5000x128.Idx) :
    k0_pay1 x0 x1 j = x0 j * x1 (colB j) := by
  unfold k0_pay1
  rw [mulf_apply, shapeCast_self, bcast_col]

/-- The blend `0.9·(raw · d^(-1/2)[row]) + 0.1·x0` at an element of a block. -/
def blend (x0 : S5000x128.Idx → EReal) (x1 : S5000x1.Idx → EReal) (x2 : S5000x128.Idx → EReal) (j : S5000x128.Idx) : EReal :=
  Ideal.ofBits .f32 0x3F666666#32 * (x0 j * x1 (colB j)) + Ideal.ofBits .f32 0x3DCCCCCD#32 * x2 j

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The block's matrix product into the zero accumulator, at an element: the sum over the contracted axis. -/
theorem matmul_zero_apply (l : FVec Ideal S5000x128 .bf16) (r : FVec Ideal S128x128 .bf16) (j : S5000x128.Idx) :
    matmul dot_S5000x128_S128x128_S5000x128_1_0_0_1_n_n none l r (constant (F := Ideal) S5000x128 .f32 0x00000000#32) j
      = ∑ k : Fin 128, l (rowAt j k) * r (colAt j k) := by
  simp only [matmul]
  rw [Ideal.matmul_constant_zero_apply,
    ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j
      ((ValueIdx.contrEquiv1 dot_S5000x128_S128x128_S5000x128_1_0_0_1_n_n 128 rfl rfl).symm k) = rowAt j k :=
    funext fun a => Fin.ext (by
      match a with
      | ⟨0, _⟩ => exact lhs0 _ _
      | ⟨1, _⟩ => exact (lhs1 _ _).trans hk)
  have er : dot_S5000x128_S128x128_S5000x128_1_0_0_1_n_n.rhsIdx j
      ((ValueIdx.contrEquiv1 dot_S5000x128_S128x128_S5000x128_1_0_0_1_n_n 128 rfl rfl).symm k) = colAt j k :=
    funext fun a => Fin.ext (by
      match a with
      | ⟨0, _⟩ => exact (rhs0 _ _).trans hk
      | ⟨1, _⟩ => exact rhs1 _ _)
  rw [el, er]

/-- The residual body at an element. -/
theorem residual_apply (x0 : Vec Ideal S5000x128 .f32) (x1 : Vec Ideal S5000x1 .f32) (x2 : Vec Ideal S5000x128 .f32)
    (x3 : Vec Ideal S128x128 .bf16) (j : S5000x128.Idx) :
    k1_pay1 x0 x1 x2 x3 j
      = Ideal.ofBits .f32 0x3F183370#32 * blend x0 x1 x2 j
        + Ideal.ofBits .f32 0x3ECF991F#32 * ∑ k : Fin 128, blend x0 x1 x2 (rowAt j k) * x3 (colAt j k) := by
  unfold k1_pay1
  rw [addf_apply, mulf_apply, mulf_apply, matmul_zero_apply]
  simp only [shapeCast_self, truncf_apply, addf_apply, mulf_apply, broadcast_apply, bcast_col, blend]
  rfl

end Cert.KernelIdeal.Bodies

end
-- ==== Proof.Arrays.lean ====
/-
  Each pipeline's output array as ONE function of the arrays it finds on entry.

  Both pipelines walk the rows in 20 blocks of 5000: at point `t` every row-blocked window sits on rows
  `5000·t … 5000·t + 4999` (the column `d^(-1/2)` beside them), the weight window is the whole `128 × 128` matrix, and the
  output blocks tile the array. So element `(r, j)` of the first output is `x[r, j] · d^(-1/2)[r]`, and element `(r, j)` of the
  second is `(1 - β)·mix[r, j] + β·Σ_k mix[r, k]·W[k, j]` with `mix[r, j] = 0.9·(raw[r, j]·d^(-1/2)[r]) + 0.1·x0[r, j]`.
-/
import proofs.«103143_j37022618092149_2_alg».proof.Proof.Gen.KernelIdeal.Frame
import proofs.«103143_j37022618092149_2_alg».proof.Proof.Bodies
import Idealize.ShloMosaic.Lib.Pipeline.Value

set_option maxRecDepth 16384

noncomputable section

open scoped BigOperators

namespace Cert.KernelIdeal.Arrays

open Cert.KernelIdeal Cert.KernelIdeal.Gen Cert.KernelIdeal.Bodies Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The entry of the `[100000, 1]` column beside row `i 0`. -/
abbrev colOf (i : S100000x128.Idx) : S100000x1.Idx := fun a => match a with
  | ⟨0, _⟩ => ⟨(i 0).val, (i 0).isLt⟩
  | ⟨1, _⟩ => ⟨0, Nat.one_pos⟩

/-- Element `(i 0, k)`: row of `i`, column `k`. -/
abbrev rowCol (i : S100000x128.Idx) (k : Fin 128) : S100000x128.Idx := fun a => match a with
  | ⟨0, _⟩ => ⟨(i 0).val, (i 0).isLt⟩
  | ⟨1, _⟩ => ⟨k.val, k.isLt⟩

/-- Element `(k, i 1)` of the weights: row `k`, column of `i`. -/
abbrev wAt (i : S100000x128.Idx) (k : Fin 128) : S128x128.Idx := fun a => match a with
  | ⟨0, _⟩ => ⟨k.val, k.isLt⟩
  | ⟨1, _⟩ => ⟨(i 1).val, (i 1).isLt⟩

/-- Rows scaled by the column: `a[r, j] · d[r]`. -/
def scaled (a : S100000x128.Idx → EReal) (d : S100000x1.Idx → EReal) : S100000x128.Idx → EReal :=
  fun i => a i * d (colOf i)

/-- `0.9·(raw[r, j]·d[r]) + 0.1·x0[r, j]`. -/
def mix (raw : S100000x128.Idx → EReal) (d : S100000x1.Idx → EReal) (x0 : S100000x128.Idx → EReal) (i : S100000x128.Idx) : EReal :=
  Ideal.ofBits .f32 0x3F666666#32 * (raw i * d (colOf i)) + Ideal.ofBits .f32 0x3DCCCCCD#32 * x0 i

/-- `(1 - β)·mix[r, j] + β·Σ_k mix[r, k]·w[k, j]`. -/
def result (raw : S100000x128.Idx → EReal) (d : S100000x1.Idx → EReal) (x0 : S100000x128.Idx → EReal)
    (w : S128x128.Idx → EReal) : S100000x128.Idx → EReal :=
  fun i => Ideal.ofBits .f32 0x3F183370#32 * mix raw d x0 i
    + Ideal.ofBits .f32 0x3ECF991F#32 * ∑ k : Fin 128, mix raw d x0 (rowCol i k) * w (wAt i k)

/-- `a[p] · d[q]` at two given indices. -/
def prod2 (a : S100000x128.Idx → EReal) (d : S100000x1.Idx → EReal) (p : S100000x128.Idx) (q : S100000x1.Idx) : EReal :=
  a p * d q

/-- `0.9·(raw[p0]·d[p1]) + 0.1·x0[p2]` at three given indices. -/
def mix3 (raw : S100000x128.Idx → EReal) (d : S100000x1.Idx → EReal) (x0 : S100000x128.Idx → EReal)
    (p0 : S100000x128.Idx) (p1 : S100000x1.Idx) (p2 : S100000x128.Idx) : EReal :=
  Ideal.ofBits .f32 0x3F666666#32 * (raw p0 * d p1) + Ideal.ofBits .f32 0x3DCCCCCD#32 * x0 p2

/-! ## The first pipeline: the rows of `x` scaled -/

/-- The index maps over the grid: the input blocks move with the output's, on rows `5000·t …`. -/
theorem maps0 : ∀ t : Fin cfg0.N,
    win0_0.index t (0 : Fin 2) = win0_2.index t (0 : Fin 2) ∧ win0_0.index t (1 : Fin 2) = 0
    ∧ win0_1.index t (0 : Fin 2) = win0_2.index t (0 : Fin 2) ∧ win0_1.index t (1 : Fin 2) = 0
    ∧ win0_2.index t (1 : Fin 2) = 0 ∧ win0_2.index t (0 : Fin 2) ≤ 19 :=
  (by decide +kernel : ∀ t : Fin grid0.N, _)

/-- Every block row is some point's. -/
theorem onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the scaled rows. -/
theorem flushed0_eq (c : Dev nD) (t : Fin cfg0.N) :
    (dat0 V c).flushed 2 t = ((cfg0.win 2).blk t).view.read (Elt Ideal) (scaled (V c main_arg0) (V c main_v16)) := by
  show (cfg0.win 2).cut (grid0.coords t) ((dat0 V c).after 2 t) = _
  rw [after0_2]
  unfold out0_2
  rw [View.canon_unit_zero hz]
  simp only [View.ld_unit_zero (S := S5000x128) hz, View.ld_unit_zero (S := S5000x1) hz]
  obtain ⟨e0, e1, e2, e3, e4, e5⟩ := maps0 t
  funext j
  refine (prescale_apply (iblk0 V c 0 t) (iblk0 V c 1 t) j).trans ?_
  show prod2 (V c main_arg0) (V c main_v16) (((cfg0.win 0).blk t).view.emb j) (((cfg0.win 1).blk t).view.emb (colB j))
    = prod2 (V c main_arg0) (V c main_v16) (((cfg0.win 2).blk t).view.emb j) (colOf (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb (colB j) = colOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index is in point `t`'s output block iff each coordinate is in the block's range. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v17).slice (win0_2.rect t)).set ↔ _
  rw [View.set_slice_whole, Rect.mem_set_unit]
  exact Iff.rfl

/-- The output blocks tile the array: row `r` is in the block of point `r / 5000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The first pipeline's output array: the rows of its first operand scaled by its second. -/
theorem final0 (c : Dev nD) : (dat0 V c).arrAt 2 cfg0.N = scaled (V c main_arg0) (V c main_v16) :=
  (dat0 V c).arrAt_eq_of_cover 2 (scaled (V c main_arg0) (V c main_v16)) (fun t _ => flushed0_eq V c t) cover0

/-! ## The second pipeline: the residual blend and the weights -/

theorem maps1 : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 19 :=
  (by decide +kernel : ∀ t : Fin grid1.N, _)

theorem onto1 : ∀ q : Fin 20, ∃ t : Fin cfg1.N, win1_4.index t = ![q.val, 0] :=
  (by decide +kernel : ∀ q : Fin 20, ∃ t : Fin grid1.N, win1_4.index t = ![q.val, 0])

/-- The blend of the blocks at point `t`, at an element of the block, is `mix` of the arrays at that element. -/
theorem blend_eq (c : Dev nD) (t : Fin cfg1.N) (j : S5000x128.Idx) :
    blend (iblk1 V c 0 t) (iblk1 V c 1 t) (iblk1 V c 2 t) j
      = mix (V c main_v27) (V c main_v16) (V c main_arg1) (((cfg1.win 4).blk t).view.emb j) := by
  obtain ⟨e0, e1, e2, e3, e4, e5, e6, e7, e8, e9⟩ := maps1 t
  show mix3 (V c main_v27) (V c main_v16) (V c main_arg1) (((cfg1.win 0).blk t).view.emb j)
      (((cfg1.win 1).blk t).view.emb (colB j)) (((cfg1.win 2).blk t).view.emb j)
    = mix3 (V c main_v27) (V c main_v16) (V c main_arg1) (((cfg1.win 4).blk t).view.emb j)
      (colOf (((cfg1.win 4).blk t).view.emb j)) (((cfg1.win 4).blk t).view.emb j)
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have h1 : ((cfg1.win 1).blk t).view.emb (colB j) = colOf (((cfg1.win 4).blk t).view.emb j) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 128 + 1 * (j 1).val = win1_4.index t (1 : Fin 2) * 128 + 1 * (j 1).val; omega
  rw [h0, h1, h2]

/-- What point `t` writes back is block `t` of `result`. -/
theorem flushed1_eq (c : Dev nD) (t : Fin cfg1.N) :
    (dat1 V c).flushed 4 t = ((cfg1.win 4).blk t).view.read (Elt Ideal)
      (result (V c main_v27) (V c main_v16) (V c main_arg1) (V c main_v28)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128x128) hz]
  obtain ⟨e0, e1, e2, e3, e4, e5, e6, e7, e8, e9⟩ := maps1 t
  funext j
  refine (residual_apply (iblk1 V c 0 t) (iblk1 V c 1 t) (iblk1 V c 2 t) (iblk1 V c 3 t) j).trans ?_
  show Ideal.ofBits .f32 0x3F183370#32 * blend (iblk1 V c 0 t) (iblk1 V c 1 t) (iblk1 V c 2 t) j
      + Ideal.ofBits .f32 0x3ECF991F#32 * ∑ k : Fin 128, blend (iblk1 V c 0 t) (iblk1 V c 1 t) (iblk1 V c 2 t) (rowAt j k)
          * (V c main_v28 (((cfg1.win 3).blk t).view.emb (colAt j k)) : EReal)
    = Ideal.ofBits .f32 0x3F183370#32 * mix (V c main_v27) (V c main_v16) (V c main_arg1) (((cfg1.win 4).blk t).view.emb j)
      + Ideal.ofBits .f32 0x3ECF991F#32 * ∑ k : Fin 128,
          mix (V c main_v27) (V c main_v16) (V c main_arg1) (rowCol (((cfg1.win 4).blk t).view.emb j) k)
            * (V c main_v28 (wAt (((cfg1.win 4).blk t).view.emb j) k) : EReal)
  rw [blend_eq V c t j]
  refine congrArg (fun s => Ideal.ofBits .f32 0x3F183370#32 * mix (V c main_v27) (V c main_v16) (V c main_arg1) (((cfg1.win 4).blk t).view.emb j)
      + Ideal.ofBits .f32 0x3ECF991F#32 * s) (Finset.sum_congr rfl fun k _ => ?_)
  have hr : ((cfg1.win 4).blk t).view.emb (rowAt j k) = rowCol (((cfg1.win 4).blk t).view.emb j) k := by
    funext a; apply Fin.ext
    match a with
    | ⟨0, _⟩ => rfl
    | ⟨1, _⟩ => show win1_4.index t (1 : Fin 2) * 128 + 1 * k.val = k.val; omega
  have hw : ((cfg1.win 3).blk t).view.emb (colAt j k) = wAt (((cfg1.win 4).blk t).view.emb j) k := by
    funext a; apply Fin.ext
    match a with
    | ⟨0, _⟩ => show win1_3.index t (0 : Fin 2) * 128 + 1 * k.val = k.val; omega
    | ⟨1, _⟩ => show win1_3.index t (1 : Fin 2) * 128 + 1 * (j 1).val = win1_4.index t (1 : Fin 2) * 128 + 1 * (j 1).val; omega
  rw [blend_eq V c t (rowAt j k), hr, hw]

theorem mem_blk1 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

theorem cover1 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ := onto1 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk1]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The second pipeline's output array. -/
theorem final1 (c : Dev nD) :
    (dat1 V c).arrAt 4 cfg1.N = result (V c main_v27) (V c main_v16) (V c main_arg1) (V c main_v28) :=
  (dat1 V c).arrAt_eq_of_cover 4 (result (V c main_v27) (V c main_v16) (V c main_arg1) (V c main_v28))
    (fun t _ => flushed1_eq V c t) cover1

end Cert.KernelIdeal.Arrays

end
-- ==== Proof.RunOut.lean ====
/-
  The run of the whole program with its RESULT named: every weakly fair execution terminates, nothing faults, the
  argument arrays end as launched, and the result array ends at the contents the second pipeline leaves in it
  (the last boundary of the fold through the host stretches and the two pipelines).
-/
import proofs.«103143_j37022618092149_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run, the result buffer read at the last boundary's contents. -/
theorem run_out : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c)⟩)

/-- The result array at the last boundary is what the second pipeline's write-backs leave in its output window. -/
theorem out_eq (c : Dev nD) : W6 m ρ c (Proc.devRef .tc main_v29) = (dat1 (V5 m ρ) c).arrAt 4 cfg1.N :=
  W6_arr m ρ c 4

end Cert.KernelIdeal.RunOut

end
-- ==== Proof.KernelValue.lean ====
/-
  The kernel program's result array as one function of its four arguments.

  Between the two pipelines the host takes the scaled rows `xs = x · d^(-1/2)` at the source indices (a negative index
  counted from the end, then clamped) and adds them into the rows named by the target indices: `raw`. The second pipeline
  then finds `raw`, the `d^(-1/2)` column, `x0` and the weights (their change of float format is the identity), and leaves
  `(1 - β)·mix + β·(mix · W)` with `mix = 0.9·(raw · d^(-1/2)) + 0.1·x0`.
-/
import proofs.«103143_j37022618092149_2_alg».proof.Proof.HostEntry
import proofs.«103143_j37022618092149_2_alg».proof.Proof.Arrays
import proofs.«103143_j37022618092149_2_alg».proof.Proof.RunOut

set_option maxRecDepth 16384

noncomputable section

namespace Cert.KernelIdeal.KernelValue

open Cert.KernelIdeal Cert.KernelIdeal.Gen Cert.KernelIdeal.Arrays Cert.KernelIdeal.HostEntry
open Idealize.ShloMosaic Idealize.ShloMosaic.TcCoe Idealize.SL.Sem Idealize.ShloMosaic.StableHlo

variable (m : (ℓ : Loc nD τ sig) → Buf (Elt Ideal) ℓ) (ρ : Dev nD → PrngReg)

/-- Rows `xs` taken at the source indices (a negative index counted from the end; then clamped by the gather) and added
    into the rows the target indices name. -/
def rawOfK (xs : S100000x128.Idx → EReal) (src dst : IVec S1700000 32) : S100000x128.Idx → EReal :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (Host.gather gather_S100000x128_S1700000x1_S1700000x128_1_0_n_n_0_1_1128 xs
      (broadcastInDim S1700000x1 ![0] bcast_S1700000_S1700000x1_0
        (select (cmpi .slt src (broadcastInDim S1700000 ![] bcast_S_S1700000 (constantI S_ 32 0#32)))
          (addi src (broadcastInDim S1700000 ![] bcast_S_S1700000 (constantI S_ 32 100000#32))) src)))

/-- The same at the program's own index vectors: the scaled rows of `x`, the edge list's sources and targets. -/
def rawOf (x : S100000x128.Idx → EReal) (ei : IVec S2x1600000 32) : S100000x128.Idx → EReal :=
  rawOfK (scaled x (dcol ei)) (Cert.ReferenceIdeal.ReadP.val_main_v3 (F := Ideal) ei)
    (Cert.ReferenceIdeal.ReadP.val_main_v6 (F := Ideal) ei)

/-- The program's result as a function of its arguments. -/
def kernelOut (x x0 : S100000x128.Idx → EReal) (W : S128x128.Idx → EReal) (ei : IVec S2x1600000 32) :
    S100000x128.Idx → EReal :=
  result (rawOf x ei) (dcol ei) x0 W

/-- The kernel's accumulated rows, written with the reference's own index columns and zero array: the same accumulating
    scatter, of the gathered scaled rows. -/
theorem rawOf_eq (x : S100000x128.Idx → EReal) (ei : IVec S2x1600000 32) :
    rawOf x ei
      = Ideal.hostScatterAdd Cert.ReferenceIdeal.scatter_S100000x128_S1700000x1_S1700000x128_1_0_0_1
          (Cert.ReferenceIdeal.ReadP.val_main_v41 (F := Ideal)) (Cert.ReferenceIdeal.ReadP.val_main_v42 (F := Ideal) ei)
          (Host.gather Cert.ReferenceIdeal.gather_S100000x128_S1700000x1_S1700000x128_1_0_n_n_0_1_1128 (scaled x (dcol ei))
            (Cert.ReferenceIdeal.ReadP.val_main_v36 (F := Ideal) ei)) := by
  have h1 : scatter_S100000x128_S1700000x1_S1700000x128_1_0_0_1
      = Cert.ReferenceIdeal.scatter_S100000x128_S1700000x1_S1700000x128_1_0_0_1 := rfl
  have h2 : gather_S100000x128_S1700000x1_S1700000x128_1_0_n_n_0_1_1128
      = Cert.ReferenceIdeal.gather_S100000x128_S1700000x1_S1700000x128_1_0_n_n_0_1_1128 := rfl
  have h3 : broadcastInDim S100000x128 ![] bcast_S_S100000x128 (constant (F := Ideal) S_ .f32 0x00000000#32)
      = Cert.ReferenceIdeal.ReadP.val_main_v41 (F := Ideal) := rfl
  have h4 : broadcastInDim S1700000x1 ![0] bcast_S1700000_S1700000x1_0 (Cert.ReferenceIdeal.ReadP.val_main_v6 (F := Ideal) ei)
      = Cert.ReferenceIdeal.ReadP.val_main_v42 (F := Ideal) ei := rfl
  have h5 : broadcastInDim S1700000x1 ![0] bcast_S1700000_S1700000x1_0
        (select (cmpi .slt (Cert.ReferenceIdeal.ReadP.val_main_v3 (F := Ideal) ei) (broadcastInDim S1700000 ![] bcast_S_S1700000 (constantI S_ 32 0#32)))
          (addi (Cert.ReferenceIdeal.ReadP.val_main_v3 (F := Ideal) ei) (broadcastInDim S1700000 ![] bcast_S_S1700000 (constantI S_ 32 100000#32)))
          (Cert.ReferenceIdeal.ReadP.val_main_v3 (F := Ideal) ei))
      = Cert.ReferenceIdeal.ReadP.val_main_v36 (F := Ideal) ei := rfl
  unfold rawOf rawOfK Host.scatterAdd
  rw [Ideal.hostScatterAdd_def, h1, h2, h3, h4, h5]

/-! ## The host stretch between the pipelines, from any contents -/

theorem step_raw (W : Valuation τ sig (Elt Ideal)) : StableHlo.after hostOps1 W (Proc.devRef .tc main_v27)
    = rawOfK (W (Proc.devRef .tc main_v17)) (W (Proc.devRef .tc main_v3)) (W (Proc.devRef .tc main_v6)) := by
  after_results_simp <;> rfl

theorem step_w (W : Valuation τ sig (Elt Ideal)) :
    (StableHlo.after hostOps1 W (Proc.devRef .tc main_v28) : S128x128.Idx → EReal)
      = (W (Proc.devRef .tc main_arg2) : S128x128.Idx → EReal) := by
  after_results_simp <;> rfl

theorem step_keep_dcol (W : Valuation τ sig (Elt Ideal)) :
    StableHlo.after hostOps1 W (Proc.devRef .tc main_v16) = W (Proc.devRef .tc main_v16) := by
  after_results_simp <;> rfl

theorem step_keep_arg1 (W : Valuation τ sig (Elt Ideal)) :
    StableHlo.after hostOps1 W (Proc.devRef .tc main_arg1) = W (Proc.devRef .tc main_arg1) := by
  after_results_simp <;> rfl

/-! ## What the second pipeline finds -/

/-- The first pipeline's output: the rows of `x` scaled by the column. -/
theorem mid_xs (c : Dev nD) : W4 m ρ c (Proc.devRef .tc main_v17)
    = scaled (m ((c : Thread nD τ).loc main_arg0)) (dcol (m ((c : Thread nD τ).loc main_arg3))) :=
  (W4_arr m ρ c 2).trans ((final0 (V3 m ρ) c).trans (congrArg₂ scaled (at_arg0 m ρ c) (at_dcol m ρ c)))

theorem in_raw (c : Dev nD) : V5 m ρ c main_v27
    = rawOf (m ((c : Thread nD τ).loc main_arg0)) (m ((c : Thread nD τ).loc main_arg3)) :=
  (step_raw (W4 m ρ c)).trans (by rw [mid_dst m ρ c, mid_src m ρ c, mid_xs m ρ c]; try rfl)

theorem in_dcol (c : Dev nD) : V5 m ρ c main_v16 = dcol (m ((c : Thread nD τ).loc main_arg3)) :=
  (step_keep_dcol (W4 m ρ c)).trans (mid_dcol m ρ c)

theorem in_arg1 (c : Dev nD) : V5 m ρ c main_arg1 = m ((c : Thread nD τ).loc main_arg1) :=
  (step_keep_arg1 (W4 m ρ c)).trans (mid_arg1 m ρ c)

theorem in_w (c : Dev nD) : (V5 m ρ c main_v28 : S128x128.Idx → EReal) = (m ((c : Thread nD τ).loc main_arg2) : S128x128.Idx → EReal) :=
  (step_w (W4 m ρ c)).trans (mid_arg2 m ρ c)

/-! ## The result -/

/-- The result array at the end of the run. -/
theorem value (c : Dev nD) : W6 m ρ c (Proc.devRef .tc main_v29)
    = kernelOut (m ((c : Thread nD τ).loc main_arg0)) (m ((c : Thread nD τ).loc main_arg1))
        (m ((c : Thread nD τ).loc main_arg2)) (m ((c : Thread nD τ).loc main_arg3)) :=
  (Cert.KernelIdeal.RunOut.out_eq m ρ c).trans ((final1 (V5 m ρ) c).trans (by
    rw [in_raw m ρ c, in_dcol m ρ c, in_arg1 m ρ c, in_w m ρ c]; try rfl))

/-- The kernel program runs, its arguments end unchanged, and its result ends at `kernelOut` of the arguments. -/
theorem run : θ_run defs (onTc (τ := τ) (main (F := Ideal))) ⟨m, fun _ => 0, ρ⟩ (fun r => ∀ c : Dev nD,
      r.2.mem ((c.tc : Thread nD τ).loc main_v29)
        = kernelOut (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (value m ρ c), (h c).2⟩) (Cert.KernelIdeal.RunOut.run_out m ρ)

end Cert.KernelIdeal.KernelValue

end
-- ==== Proof.FiniteIn.lean ====
/-
  Every entry of the first argument is a real number, from the precondition.

  The precondition is the conjunction of three `all(|·| < +inf)`; its first conjunct says that at every index the
  entry's absolute value is below `+inf` on the extended reals, so the entry is neither infinity.
-/
import proofs.«103143_j37022618092149_2_alg».proof.Pre_finite_inputs
import Idealize.ShloMosaic.Lib.ReduceAll
import Idealize.ShloMosaic.Lib.ValueIdx
import Idealize.ShloMosaic.PureOps.Ideal.Laws

noncomputable section

namespace Cert.FiniteIn

open Idealize.ShloMosaic Cert.Pre_finite_inputs

variable [Cert.Pre_finite_inputs.Facts]

instance : Subsingleton Cert.Pre_finite_inputs.S_.Idx := ⟨fun a b => funext fun d => d.elim0⟩

/-- The word `0x7F800000` is `+inf`. -/
theorem ofBits_inf : Ideal.ofBits .f32 0x7F800000#32 = (⊤ : EReal) := by simp [Ideal.ofBits, Ideal.ieee]

/-- An extended real whose absolute value is below `+inf` is a real. -/
theorem real_of_abs_lt_top (a : EReal) (h : max a (-a) < ⊤) : ∃ r : ℝ, a = (r : EReal) := by
  induction a using EReal.rec with
  | bot => simp at h
  | coe r => exact ⟨r, rfl⟩
  | top => simp at h

/-- Under the precondition every entry of the first argument is a real. -/
theorem arg0_real (x x0 : FVec Ideal S100000x128 .f32) (W : FVec Ideal S128x128 .f32) (ei : IVec S2x1600000 32)
    (h : Cert.Pre_finite_inputs.fn (F := Ideal) x x0 W ei = fun _ => 1#1) (i : S100000x128.Idx) :
    ∃ r : ℝ, x i = (r : EReal) := by
  have h0 := congrFun h ValueIdx.ix0
  dsimp only [Cert.Pre_finite_inputs.fn] at h0
  have h1 := (IntOp.andi_eq_one.mp h0).1
  have h2 := (IntOp.andi_eq_one.mp h1).1
  have h3 := Host.reduce_andi_all _ _ _ _ _ h2 i
  have h4 : max (x i) (-(x i)) < Ideal.ofBits .f32 0x7F800000#32 := by
    by_contra hc
    have : (cmpf (F := Ideal) .olt (Host.absf x) (broadcastInDim S100000x128 ![] Facts.bcast_S_S100000x128 (constant (F := Ideal) S_ .f32 0x7F800000#32))) i = 0#1 := by
      show Ideal.cmp .olt (max (x i) (-(x i))) (Ideal.ofBits .f32 0x7F800000#32) = 0#1
      simp [Ideal.cmp, hc]
    rw [this] at h3
    exact absurd h3 (by decide)
  rw [ofBits_inf] at h4
  exact real_of_abs_lt_top _ h4

end Cert.FiniteIn

end
-- ==== Proof.RefValue.lean ====
/-
  The reference read at one element of its result, and its `d^(-1/2)` vector.

  `d^(-1/2)[r]` is `rsqrt(deg[r])` where `deg[r] > 0` and `0` elsewhere: a real number whatever the degree is (the
  reciprocal square root of `+inf` is `0`, of a positive real a positive real). The result at `(r, j)` is
  `(1 - β)·out[r, j] + β·Σ_k out[r, k]·W[k, j]` with `out = 0.9·agg + 0.1·x0`, where `agg` is the accumulating scatter of the messages.
-/
import proofs.«103143_j37022618092149_2_alg».proof.Proof.ReadP
import Idealize.ShloMosaic.Lib.ValueIdx
import Idealize.ShloMosaic.PureOps.Ideal.Laws

noncomputable section

open scoped BigOperators

namespace Cert.ReferenceIdeal.RefValue

open Cert.ReferenceIdeal Cert.ReferenceIdeal.ReadP Idealize.ShloMosaic Idealize.ShloMosaic.ValueIdx

/-- `d^(-1/2)` is a real at every node. -/
theorem dinv_real (ei : IVec S2x1600000 32) (r : S100000.Idx) :
    ∃ d : ℝ, val_main_v15 (F := Ideal) ei r = (d : EReal) := by
  rw [val_main_v15_apply, val_main_v12_apply, val_main_v13_apply, val_main_v14_apply, val_main_cst_2_apply,
    val_main_v11_apply, val_main_cst_1_apply]
  generalize val_main_v10 (F := Ideal) ei r = g
  show ∃ d : ℝ, Scalar.select (Ideal.cmp .ogt g (Ideal.ofBits .f32 0x00000000#32)) (Ideal.rsqrt g)
    (Ideal.ofBits .f32 0x00000000#32) = (d : EReal)
  rw [Ideal.ofBits_zero_f32]
  by_cases hc : Ideal.cmp .ogt g 0 = 1#1
  · rw [hc, select_one]
    have hpos : (0 : EReal) < g := by
      by_contra hn
      have : Ideal.cmp .ogt g 0 = 0#1 := by simp [Ideal.cmp, hn]
      rw [this] at hc
      exact absurd hc (by decide)
    induction g using EReal.rec with
    | bot => exact absurd hpos (by simp)
    | top => exact ⟨0, by simp⟩
    | coe t =>
      have ht : 0 < t := by exact_mod_cast hpos
      refine ⟨(Real.sqrt t)⁻¹, ?_⟩
      rw [Ideal.rsqrt_coe, if_neg (not_lt.mpr ht.le), if_neg ht.ne']
  · rw [eq_zero_of_ne_one hc, select_zero]
    exact ⟨0, by simp⟩

/-- `0.9·agg + 0.1·x0` at an element. -/
def outAt (agg x0 : S100000x128.Idx → EReal) (i : S100000x128.Idx) : EReal :=
  Ideal.ofBits .f32 0x3F666666#32 * agg i + Ideal.ofBits .f32 0x3DCCCCCD#32 * x0 i

theorem v48_apply (x x0 : S100000x128.Idx → EReal) (ei : IVec S2x1600000 32) (i : S100000x128.Idx) :
    val_main_v48 (F := Ideal) x x0 ei i = outAt (val_main_v43 (F := Ideal) x ei) x0 i := by
  rw [val_main_v48_apply, val_main_v45_apply, val_main_v47_apply, val_main_v44_apply, val_main_cst_9_apply,
    val_main_v46_apply, val_main_cst_10_apply]
  simp only [Ideal.addf_def, Ideal.mulf_def, Ideal.ofBits_def, outAt]

/-- The reference's result at an element. -/
theorem result_apply (x x0 : S100000x128.Idx → EReal) (W : S128x128.Idx → EReal) (ei : IVec S2x1600000 32)
    (i : S100000x128.Idx) :
    val_main_v54 (F := Ideal) x x0 W ei i
      = Ideal.ofBits .f32 0x3F183370#32 * outAt (val_main_v43 (F := Ideal) x ei) x0 i
        + Ideal.ofBits .f32 0x3ECF991F#32
          * ∑ k : Fin 128, outAt (val_main_v43 (F := Ideal) x ei) x0 (lidx_main_v51 i k) * W (ridx_main_v51 i k) := by
  rw [val_main_v54_apply, val_main_v50_apply, val_main_v53_apply, val_main_v51_apply, val_main_v49_apply,
    val_main_cst_11_apply, val_main_v52_apply, val_main_cst_12_apply, v48_apply]
  simp only [v48_apply, Ideal.addf_def, Ideal.mulf_def, Ideal.ofBits_def]

/-- The aggregate is the accumulating scatter of the messages into the zero array. -/
theorem v43_eq (x : S100000x128.Idx → EReal) (ei : IVec S2x1600000 32) :
    val_main_v43 (F := Ideal) x ei
      = Ideal.hostScatterAdd scatter_S100000x128_S1700000x1_S1700000x128_1_0_0_1 (val_main_v41 (F := Ideal))
          (val_main_v42 (F := Ideal) ei) (val_main_v40 (F := Ideal) x ei) := by
  unfold val_main_v43 Host.scatterAdd
  rw [Ideal.hostScatterAdd_def]

end Cert.ReferenceIdeal.RefValue

end
-- ==== Proof.RowOps.lean ====
/-
  Rows of a matrix taken and added by an integer index column, read at one element.

  A row gather `x[idx]` of an `[N, C]` array at an index column `[R, 1]` gives row `e` of the result the row of `x`
  named by the index read signed and clamped into `[0, N - 1]`; the same for a flat `[N]` array. A row scatter-add adds
  update row `e` into the row of the operand named by the index read signed and NOT clamped, and drops it when that
  row is outside the operand: so an update element that lands on operand element `p` has its index equal to `p`'s row
  and sits in `p`'s column. Last, on the extended reals a finite sum of reals times a real is the sum of the products.
-/
import Idealize.ShloMosaic.Lib.ValueIdx
import Idealize.ShloMosaic.PureOps.Ideal

noncomputable section

open scoped BigOperators

namespace Cert.RowOps

open Idealize.ShloMosaic Idealize.ShloMosaic.ValueIdx

/-! ## Taking rows -/

/-- The dimension numbers of `x[idx]` for `x : [N, C]` and an index column `idx : [R, 1]`: whole rows are taken. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an index word names in an array of `N` rows: read signed, clamped into `[0, N - 1]`. -/
def rowOf {w : Nat} (N : Nat) (hN : 0 < N) (v : BitVec w) : Fin N := ⟨min v.toInt.toNat (N - 1), by omega⟩

/-- Element `(e, j)` of the taken rows is element `(rowOf idx[e], j)` of the array. -/
theorem gather_rows_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowsDims N R C wf) x idx (ix2 e j) = x (ix2 (rowOf N hN (idx (ix2 e (0 : Fin 1)))) j) := by
  unfold Host.gather
  congr 1
  funext a
  refine Fin.ext ?_
  match a with
  | ⟨0, _⟩ =>
    show (rowsDims N R C wf).start (ix2 e j) idx 0 + (rowsDims N R C wf).batchCoord (ix2 e j) 0
      + (rowsDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e j) ⟨List.idxOf (0 : Fin 2) (rowsDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N R C wf).start (ix2 e j) idx 1 + (rowsDims N R C wf).batchCoord (ix2 e j) 1
      + (rowsDims N R C wf).offCoord (ix2 e j) 1 = _
    rw [GatherDims.batchCoord_eq_zero _ _ _ List.not_mem_nil]
    unfold GatherDims.start
    rw [dif_neg (show ¬ (1 : Fin 2) ∈ (rowsDims N R C wf).startIndexMap from fun h => Nat.one_ne_zero (congrArg Fin.val (List.mem_singleton.mp h)))]
    unfold GatherDims.offCoord
    rw [dif_pos (show (1 : Fin 2) ∈ (rowsDims N R C wf).sKept from (GatherDims.mem_sKept _ _).mpr ⟨fun h => Nat.one_ne_zero (congrArg Fin.val (List.mem_singleton.mp h)), List.not_mem_nil⟩)]
    simp only [Nat.add_zero, Nat.zero_add]
    rfl

/-- The dimension numbers of `x[idx]` for a flat `x : [N]` and an index column `idx : [R, 1]`. -/
abbrev takeDims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Element `e` of the taken entries is entry `rowOf idx[e]` of the array. -/
theorem gather_take1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (takeDims1 N R wf) x idx (ix1 e) = x (ix1 (rowOf N hN (idx (ix2 e (0 : Fin 1))))) := by
  unfold Host.gather
  congr 1
  funext a
  obtain rfl : a = 0 := Subsingleton.elim _ _
  refine Fin.ext ?_
  show (takeDims1 N R wf).start (ix1 e) idx 0 + (takeDims1 N R wf).batchCoord (ix1 e) 0
    + (takeDims1 N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N R wf).startIndexMap from List.mem_singleton.mpr rfl)]
  have hsi : (takeDims1 N R wf).siIdx (ix1 e) ⟨List.idxOf (0 : Fin 1) (takeDims1 N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## Adding rows -/

/-- The dimension numbers of `zeros.at[idx].add(u)` for an operand `[N, C]`, an index column `[R, 1]` and update
    rows `u : [R, C]`. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, j)` that lands on operand element `p`: its index word, read signed, IS `p`'s row, and
    `j` is `p`'s column. -/
theorem scatter_rows_hit {N R C w : Nat}
    (wf : ScatterDims.WF ⟨2, ![N, C]⟩ ⟨2, ![R, 1]⟩ ⟨2, ![R, C]⟩ [1] [0] [0] 1)
    (idx : IVec ⟨2, ![R, 1]⟩ w) (e : Fin R) (j : Fin C) (p : (⟨2, ![N, C]⟩ : Shape).Idx)
    (h : (rowsScatter N R C wf).resultIdx? (ix2 e j) idx = some p) :
    (idx (ix2 e (0 : Fin 1))).toInt = ((p 0).val : Int) ∧ j.val = (p 1).val := by
  have hs0 : (rowsScatter N R C wf).start (ix2 e j) idx 0 = (idx (ix2 e (0 : Fin 1))).toInt := by
    unfold ScatterDims.start
    rw [dif_pos (show (0 : Fin 2) ∈ (rowsScatter N R C wf).scatterDimsToOperandDims from List.mem_singleton.mpr rfl)]
    have hsi : (rowsScatter N R C wf).siIdx (ix2 e j) ⟨List.idxOf (0 : Fin 2) (rowsScatter N R C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowsScatter N R C wf).start (ix2 e j) idx 1 = 0 := by
    unfold ScatterDims.start
    rw [dif_neg (show ¬ (1 : Fin 2) ∈ (rowsScatter N R C wf).scatterDimsToOperandDims from fun h => Nat.one_ne_zero (congrArg Fin.val (List.mem_singleton.mp h)))]
  have hw0 : (rowsScatter N R C wf).window (ix2 e j) 0 = 0 := by
    unfold ScatterDims.window
    rw [dif_neg (show ¬ (0 : Fin 2) ∈ (rowsScatter N R C wf).sKept by simp [ScatterDims.sKept, Shape.kept, List.mem_filter, List.mem_finRange])]
  have hw1 : (rowsScatter N R C wf).window (ix2 e j) 1 = j.val := by
    unfold ScatterDims.window
    rw [dif_pos (show (1 : Fin 2) ∈ (rowsScatter N R C wf).sKept by simp [ScatterDims.sKept, Shape.kept, List.mem_filter, List.mem_finRange])]
    rfl
  unfold ScatterDims.resultIdx? at h
  split at h
  · rename_i hin
    have hp := Option.some.inj h
    have h0 := congrArg (fun f => (f 0).val) hp
    have h1 := congrArg (fun f => (f 1).val) hp
    simp only [hs0, hs1, hw0, hw1] at h0 h1
    have hin0 := hin 0
    rw [hs0, hw0] at hin0
    constructor
    · omega
    · omega
  · exact absurd h (by simp)

/-! ## A finite sum of reals times a real, on the extended reals -/

/-- A finite sum of reals, read in the extended reals, is the real sum. -/
theorem coe_sum {ι : Type*} (s : Finset ι) (f : ι → ℝ) : ∑ u ∈ s, (f u : EReal) = ((∑ u ∈ s, f u : ℝ) : EReal) := by
  classical
  induction s using Finset.induction_on with
  | empty => simp
  | insert a t ha ih => rw [Finset.sum_insert ha, Finset.sum_insert ha, ih, EReal.coe_add]

/-- Multiplying by a real distributes over a finite sum of reals. -/
theorem sum_mul_coe {ι : Type*} (s : Finset ι) (f : ι → ℝ) (c : ℝ) :
    ∑ u ∈ s, ((f u : EReal) * (c : EReal)) = (∑ u ∈ s, (f u : EReal)) * (c : EReal) := by
  simp only [← EReal.coe_mul]
  rw [coe_sum, coe_sum, ← EReal.coe_mul, Finset.sum_mul]

/-! ## An accumulating scatter read at one element, and the law that moves a real factor out of it -/

/-- An accumulating scatter into an operand that is zero at `i`: at `i`, the sum of the updates that land on `i`. -/
theorem scatterAdd_zero_apply {s si su : Shape} (d : ScatterDims s si su) {w : Nat} (z : s.Idx → EReal) (idx : IVec si w)
    (upd : su.Idx → EReal) (i : s.Idx) (hz : z i = 0) :
    Ideal.hostScatterAdd d z idx upd i
      = ∑ j ∈ Finset.univ.filter (fun j => d.resultIdx? j idx = some i), upd j := by
  unfold Ideal.hostScatterAdd
  rw [hz, zero_add]

/-- If every update that lands on `i` is `f j · c` on one side and `f j` on the other, for reals `f j` and `c`, the
    first sum is the second times `c`. -/
theorem scatter_sum_mul {s si su : Shape} (d : ScatterDims s si su) {w : Nat} (idx : IVec si w) (i : s.Idx)
    (A B : su.Idx → EReal) (f : su.Idx → ℝ) (c : ℝ)
    (hA : ∀ j, d.resultIdx? j idx = some i → A j = (f j : EReal) * (c : EReal))
    (hB : ∀ j, B j = (f j : EReal)) :
    ∑ j ∈ Finset.univ.filter (fun j => d.resultIdx? j idx = some i), A j
      = (∑ j ∈ Finset.univ.filter (fun j => d.resultIdx? j idx = some i), B j) * (c : EReal) := by
  rw [Finset.sum_congr rfl (fun j hj => hA j (Finset.mem_filter.mp hj).2), Finset.sum_congr rfl (fun j _ => hB j)]
  exact sum_mul_coe _ f c

end Cert.RowOps

end
-- ==== Proof.Edges.lean ====
/-
  The reads at one element that the comparison of the two programs needs: the `d^(-1/2)` column at a row, the gathers of
  both programs at an edge, and the fact that an edge whose target index, read as it stands, is a row `p` also has `p` as
  its wrapped and clamped target.
-/
import proofs.«103143_j37022618092149_2_alg».proof.Proof.KernelValue
import proofs.«103143_j37022618092149_2_alg».proof.Proof.RefValue
import proofs.«103143_j37022618092149_2_alg».proof.Proof.RowOps

set_option maxRecDepth 16384

noncomputable section

open scoped BigOperators

namespace Cert.Bridge

open Idealize.ShloMosaic Idealize.ShloMosaic.ValueIdx Cert.RowOps
open Cert.ReferenceIdeal Cert.ReferenceIdeal.ReadP Cert.ReferenceIdeal.RefValue
open Cert.KernelIdeal.Arrays (scaled mix result colOf rowCol wAt)
open Cert.KernelIdeal.HostEntry (dcol)
open Cert.KernelIdeal.KernelValue (rawOfK rawOf kernelOut)

theorem hN : 0 < 100000 := by decide

/-- The row-scatter and the two gathers of the programs, as the literal dimension numbers. -/
abbrev SC := rowsScatter 100000 1700000 128 scatter_S100000x128_S1700000x1_S1700000x128_1_0_0_1.wf
abbrev GC := rowsDims 100000 1700000 128 gather_S100000x128_S1700000x1_S1700000x128_1_0_n_n_0_1_1128.wf
abbrev G1 := takeDims1 100000 1700000 gather_S100000_S1700000x1_S1700000_n_0_n_n_0_1_1.wf

/-! ## The column and the gathers at an element -/

/-- The `d^(-1/2)` column at row `r` is the vector's entry `r`. -/
theorem dcol_apply (ei : IVec S2x1600000 32) (r : Fin 100000) :
    dcol ei (ix2 r (0 : Fin 1)) = val_main_v15 (F := Ideal) ei (ix1 r) := by
  unfold dcol
  exact shapeCast_apply _ _ (ix2 r (0 : Fin 1)) (ix1 r)
    (by rewrite [Shape.rowMajor_val_one, Shape.rowMajor_val_two]; show r.val = r.val * 1 + 0; omega)

theorem colOf_ix2 (r : Fin 100000) (q : Fin 128) : colOf (ix2 r q) = ix2 r (0 : Fin 1) :=
  funext fun a => match a with | ⟨0, _⟩ => rfl | ⟨1, _⟩ => rfl

theorem colOf_eq (i : S100000x128.Idx) : colOf i = ix2 (⟨(i 0).val, (i 0).isLt⟩ : Fin 100000) (0 : Fin 1) :=
  funext fun a => match a with | ⟨0, _⟩ => rfl | ⟨1, _⟩ => rfl

/-- The source row of edge `e`: its source index counted from the end when negative, then clamped. -/
def srcRow (ei : IVec S2x1600000 32) (e : Fin 1700000) : Fin 100000 :=
  rowOf 100000 hN (val_main_v36 (F := Ideal) ei (ix2 e (0 : Fin 1)))

theorem v37_at (x : S100000x128.Idx → EReal) (ei : IVec S2x1600000 32) (e : Fin 1700000) (q : Fin 128) :
    val_main_v37 (F := Ideal) x ei (ix2 e q) = x (ix2 (srcRow ei e) q) :=
  gather_rows_apply hN GC.wf x (val_main_v36 (F := Ideal) ei) e q

theorem v22_at (ei : IVec S2x1600000 32) (e : Fin 1700000) :
    val_main_v22 (F := Ideal) ei (ix1 e) = val_main_v15 (F := Ideal) ei (ix1 (srcRow ei e)) :=
  gather_take1_apply hN G1.wf (val_main_v15 (F := Ideal) ei) (val_main_v36 (F := Ideal) ei) e

theorem v29_at (ei : IVec S2x1600000 32) (e : Fin 1700000) :
    val_main_v29 (F := Ideal) ei (ix1 e)
      = val_main_v15 (F := Ideal) ei (ix1 (rowOf 100000 hN (val_main_v28 (F := Ideal) ei (ix2 e (0 : Fin 1))))) :=
  gather_take1_apply hN G1.wf (val_main_v15 (F := Ideal) ei) (val_main_v28 (F := Ideal) ei) e

/-- The kernel's gathered scaled row at an element. -/
theorem kgather_at (x : S100000x128.Idx → EReal) (ei : IVec S2x1600000 32) (e : Fin 1700000) (q : Fin 128) :
    Host.gather gather_S100000x128_S1700000x1_S1700000x128_1_0_n_n_0_1_1128 (scaled x (dcol ei))
        (val_main_v36 (F := Ideal) ei) (ix2 e q)
      = x (ix2 (srcRow ei e) q) * val_main_v15 (F := Ideal) ei (ix1 (srcRow ei e)) := by
  refine (gather_rows_apply hN GC.wf (scaled x (dcol ei)) (val_main_v36 (F := Ideal) ei) e q).trans ?_
  show x (ix2 (srcRow ei e) q) * dcol ei (colOf (ix2 (srcRow ei e) q)) = _
  rw [colOf_ix2, dcol_apply]

/-! ## An edge that lands on row `r` has target `r` -/

/-- If the target index of edge `e`, read signed, is `p`, its wrapped and clamped reading is `p` too. -/
theorem target_row (ei : IVec S2x1600000 32) (e : Fin 1700000) (p : Fin 100000)
    (h : (val_main_v42 (F := Ideal) ei (ix2 e (0 : Fin 1))).toInt = (p.val : Int)) :
    rowOf 100000 hN (val_main_v28 (F := Ideal) ei (ix2 e (0 : Fin 1))) = p := by
  have k1 : idx_main_v42 (ix2 e (0 : Fin 1)) = ix1 e := funext fun a => match a with | ⟨0, _⟩ => rfl
  have k2 : idx_main_v28 (ix2 e (0 : Fin 1)) = ix1 e := funext fun a => match a with | ⟨0, _⟩ => rfl
  rw [val_main_v42_apply, k1] at h
  rw [val_main_v28_apply, k2, val_main_v27_apply, val_main_v24_apply, val_main_v23_apply, val_main_c_4_apply]
  generalize val_main_v6 (F := Ideal) ei (ix1 e) = d at h ⊢
  have hlt : ¬ IntOp.cmpi .slt d 0#32 = 1#1 := by
    rw [IntOp.cmpi_slt]
    have : (0#32 : BitVec 32).toInt = 0 := by decide
    rw [this, h]; omega
  rw [eq_zero_of_ne_one hlt, select_zero]
  apply Fin.ext
  show min d.toInt.toNat (100000 - 1) = p.val
  rw [h]
  have := p.isLt
  simp only [Int.toNat_natCast]
  omega

end Cert.Bridge

end
-- ==== Proof.Aggregate.lean ====
/-
  The reference's aggregate is the kernel's accumulated rows times the `d^(-1/2)` column: for an edge that lands on row
  `r` the reference's message is the kernel's gathered term times `d[r]`, all of them reals, and a real factor moves out of
  a finite sum of reals.
-/
import proofs.«103143_j37022618092149_2_alg».proof.Proof.Edges

set_option maxRecDepth 16384

noncomputable section

open scoped BigOperators

namespace Cert.Bridge

open Idealize.ShloMosaic Idealize.ShloMosaic.ValueIdx Cert.RowOps
open Cert.ReferenceIdeal Cert.ReferenceIdeal.ReadP Cert.ReferenceIdeal.RefValue
open Cert.KernelIdeal.Arrays (scaled mix result colOf rowCol wAt)
open Cert.KernelIdeal.HostEntry (dcol)
open Cert.KernelIdeal.KernelValue (rawOfK rawOf kernelOut)

/-! ## The aggregate is the kernel's accumulated rows times the column -/

theorem zero_at (i : S100000x128.Idx) : val_main_v41 (F := Ideal) i = 0 := by
  rw [val_main_v41_apply, val_main_cst_8_apply]
  exact Ideal.ofBits_zero_f32

theorem agg_eq (x : S100000x128.Idx → EReal) (ei : IVec S2x1600000 32) (hx : ∀ i, ∃ r : ℝ, x i = (r : EReal))
    (i : S100000x128.Idx) :
    val_main_v43 (F := Ideal) x ei i = rawOf x ei i * dcol ei (colOf i) := by
  choose xr hxr using hx
  choose dr hdr using dinv_real ei
  have hL := scatterAdd_zero_apply scatter_S100000x128_S1700000x1_S1700000x128_1_0_0_1 (val_main_v41 (F := Ideal))
    (val_main_v42 (F := Ideal) ei) (val_main_v40 (F := Ideal) x ei) i (zero_at i)
  have hR := scatterAdd_zero_apply scatter_S100000x128_S1700000x1_S1700000x128_1_0_0_1 (val_main_v41 (F := Ideal))
    (val_main_v42 (F := Ideal) ei)
    (Host.gather gather_S100000x128_S1700000x1_S1700000x128_1_0_n_n_0_1_1128 (scaled x (dcol ei)) (val_main_v36 (F := Ideal) ei)) i (zero_at i)
  have hcol : dcol ei (colOf i) = ((dr (ix1 (⟨(i 0).val, (i 0).isLt⟩ : Fin 100000)) : ℝ) : EReal) := by
    rw [colOf_eq, dcol_apply, hdr]
  rw [congrFun (v43_eq x ei) i, congrFun (Cert.KernelIdeal.KernelValue.rawOf_eq x ei) i, hL, hR, hcol]
  refine scatter_sum_mul scatter_S100000x128_S1700000x1_S1700000x128_1_0_0_1 (val_main_v42 (F := Ideal) ei) i _ _
    (fun j => xr (ix2 (srcRow ei ⟨(j 0).val, (j 0).isLt⟩) ⟨(j 1).val, (j 1).isLt⟩)
      * dr (ix1 (srcRow ei ⟨(j 0).val, (j 0).isLt⟩))) _ ?_ ?_
  · intro j hj
    obtain ⟨e, q, rfl⟩ : ∃ (e : Fin 1700000) (q : Fin 128), j = ix2 e q := ⟨j 0, j 1, eq_ix2 j⟩
    have hit := scatter_rows_hit SC.wf (val_main_v42 (F := Ideal) ei) e q i hj
    have e1 : idx_main_v38 (idx_main_v39 (ix2 e q)) = ix1 e := funext fun a => match a with | ⟨0, _⟩ => rfl
    rw [val_main_v40_apply, val_main_v39_apply, val_main_v38_apply, val_main_v30_apply, e1, v37_at, v22_at, v29_at,
      target_row ei e ⟨(i 0).val, (i 0).isLt⟩ hit.1, hxr, hdr, hdr]
    show ((xr (ix2 (srcRow ei e) q) : ℝ) : EReal) * (((dr (ix1 (srcRow ei e)) : ℝ) : EReal) * ((dr (ix1 (⟨(i 0).val, (i 0).isLt⟩ : Fin 100000)) : ℝ) : EReal))
      = ((xr (ix2 (srcRow ei e) q) * dr (ix1 (srcRow ei e)) : ℝ) : EReal) * ((dr (ix1 (⟨(i 0).val, (i 0).isLt⟩ : Fin 100000)) : ℝ) : EReal)
    rw [EReal.coe_mul, mul_assoc]
  · intro j
    obtain ⟨e, q, rfl⟩ : ∃ (e : Fin 1700000) (q : Fin 128), j = ix2 e q := ⟨j 0, j 1, eq_ix2 j⟩
    rw [kgather_at, hxr, hdr]
    show ((xr (ix2 (srcRow ei e) q) : ℝ) : EReal) * ((dr (ix1 (srcRow ei e)) : ℝ) : EReal)
      = ((xr (ix2 (srcRow ei e) q) * dr (ix1 (srcRow ei e)) : ℝ) : EReal)
    rw [EReal.coe_mul]

end Cert.Bridge

end
-- ==== Proof.Bridge.lean ====
/-
  The two programs compute one function of the arguments, when every entry of `x` is a real.

  Both accumulate, into row `r`, one term per edge `e` whose target index is `r` (read as it stands: a target outside
  `[0, N)` is dropped by the scatter). The reference's term is `x[s_e, j] · (d[s_e] · d[t_e])` with `d = d^(-1/2)`, `s_e` the
  source index counted from the end when negative and clamped, and `t_e` the target index treated likewise; the kernel's is
  `x[s_e, j] · d[s_e]`, and it multiplies the accumulated row by `d[r]` afterwards. For an edge that lands on row `r` the
  target index IS `r`, hence nonnegative and in range, so `t_e = r`; and since `x` and `d` hold reals, the factor `d[r]`
  moves out of the finite sum. The residual blend and the product with the weights are then the same expression.
-/
import proofs.«103143_j37022618092149_2_alg».proof.Proof.Aggregate

set_option maxRecDepth 16384

noncomputable section

open scoped BigOperators

namespace Cert.Bridge

open Idealize.ShloMosaic Idealize.ShloMosaic.ValueIdx Cert.RowOps
open Cert.ReferenceIdeal Cert.ReferenceIdeal.ReadP Cert.ReferenceIdeal.RefValue
open Cert.KernelIdeal.Arrays (scaled mix result colOf rowCol wAt)
open Cert.KernelIdeal.HostEntry (dcol)
open Cert.KernelIdeal.KernelValue (rawOfK rawOf kernelOut)

/-! ## The results -/

/-- The kernel program's result function is the reference's. -/
theorem out_eq (x x0 : S100000x128.Idx → EReal) (W : S128x128.Idx → EReal) (ei : IVec S2x1600000 32)
    (hx : ∀ i, ∃ r : ℝ, x i = (r : EReal)) :
    kernelOut x x0 W ei = val_main_v54 (F := Ideal) x x0 W ei := by
  funext i
  rw [result_apply]
  have hmix : ∀ p, mix (rawOf x ei) (dcol ei) x0 p = outAt (val_main_v43 (F := Ideal) x ei) x0 p := fun p => by
    unfold mix outAt
    rw [agg_eq x ei hx p]
  have h1 : ∀ k, rowCol i k = lidx_main_v51 i k := fun k =>
    funext fun a => match a with | ⟨0, _⟩ => rfl | ⟨1, _⟩ => rfl
  have h2 : ∀ k, wAt i k = ridx_main_v51 i k := fun k =>
    funext fun a => match a with | ⟨0, _⟩ => rfl | ⟨1, _⟩ => rfl
  show Ideal.ofBits .f32 0x3F183370#32 * mix (rawOf x ei) (dcol ei) x0 i
      + Ideal.ofBits .f32 0x3ECF991F#32 * ∑ k : Fin 128, mix (rawOf x ei) (dcol ei) x0 (rowCol i k) * W (wAt i k) = _
  simp only [hmix, h1, h2]

end Cert.Bridge

end
-- ==== Proof.lean ====
/-
  A GCNII message layer on a graph of `N = 100000` nodes and `E = 1600000` edges with self loops added, features of width 128:

      deg[r]  = number of edges (with the self loops) whose target is r,      d[r] = deg[r]^(-1/2) where deg[r] > 0, else 0
      agg     = Â · x,   Â[r, s] = Σ_{edges s → r} d[s] · d[r]
      out     = 0.9 · agg + 0.1 · x0
      result  = (1 - β) · out + β · (out · W),     β = log 1.5 as the f32 word both programs carry

  The reference forms every message `x[s] · (d[s] · d[r])` and adds it into row `r`. The kernel scales the rows of `x` by `d`
  once (a first pipeline over 20 row blocks), lets the host gather the scaled rows and add them into their target rows, and
  applies `d[r]` to the accumulated row inside a second pipeline, which also forms the blend and the product with `W` (through
  a change of float format that is the identity on the extended reals, into a zero accumulator).

  On the extended reals the two are one function when every entry of `x` is a real, which the precondition gives: `d` holds
  reals whatever the degrees are, and a real factor moves out of a finite sum of reals. Indices are read as the programs read
  them: a source index is counted from the end when negative and clamped; a target index outside `[0, N)` drops its edge on
  both sides, and one inside is its own wrapped and clamped reading. Nothing is assumed of the edge list.

  The frames of the two kernel programs are the generated ones; the reference's frame is its run with the result dropped; the
  idealization rewrote no operation, so `preserves` asks nothing.
-/
import proofs.«103143_j37022618092149_2_alg».proof.Defs
import proofs.«103143_j37022618092149_2_alg».proof.Proof.Gen.Kernel
import proofs.«103143_j37022618092149_2_alg».proof.Proof.Gen.Kernel.Skeleton
import proofs.«103143_j37022618092149_2_alg».proof.Proof.Gen.Kernel.Launch
import proofs.«103143_j37022618092149_2_alg».proof.Proof.Gen.Kernel.Points
import proofs.«103143_j37022618092149_2_alg».proof.Proof.Gen.Kernel.Frame
import proofs.«103143_j37022618092149_2_alg».proof.Proof.Gen.KernelIdeal
import proofs.«103143_j37022618092149_2_alg».proof.Proof.Gen.KernelIdeal.Skeleton
import proofs.«103143_j37022618092149_2_alg».proof.Proof.Gen.KernelIdeal.Launch
import proofs.«103143_j37022618092149_2_alg».proof.Proof.Gen.KernelIdeal.Points
import proofs.«103143_j37022618092149_2_alg».proof.Proof.Gen.KernelIdeal.Frame
import proofs.«103143_j37022618092149_2_alg».proof.Proof.Gen.ReferenceIdeal
import proofs.«103143_j37022618092149_2_alg».proof.Proof.Gen.Pre_finite_inputs
import proofs.«103143_j37022618092149_2_alg».proof.Proof.RunP
import proofs.«103143_j37022618092149_2_alg».proof.Proof.ReadP
import proofs.«103143_j37022618092149_2_alg».proof.Proof.KernelValue
import proofs.«103143_j37022618092149_2_alg».proof.Proof.FiniteIn
import proofs.«103143_j37022618092149_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs run, and both results are the one function of the arguments. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq, (hagree c).1, (hagree c).2.1, (hagree c).2.2.1, (hagree c).2.2.2]
  exact (Cert.Bridge.out_eq _ _ _ _ (Cert.FiniteIn.arg0_real _ _ _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
